-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x2048 : Shape := ⟨3, ![2, 8192, 2048]⟩
abbrev S2048x2048 : Shape := ⟨2, ![2048, 2048]⟩
abbrev S_ : Shape := ⟨0, ![]⟩

class Facts : Prop where
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2x8192x2048 .f32) (main_arg1 : FVec F S2048x2048 .f32) : IVec S_ 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_c : IVec S_ 1 := constantI S_ 1 1#1
  let main_v3 : IVec S_ 1 := (fun x v => Host.reduce IntOp.andi x v reducesTo_S2x8192x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S2x8192x2048 : Shape := ⟨3, ![2, 8192, 2048]⟩
abbrev S2048x2048 : Shape := ⟨2, ![2048, 2048]⟩
abbrev S_ : Shape := ⟨0, ![]⟩
abbrev S16384x2048 : Shape := ⟨2, ![16384, 2048]⟩
abbrev S256x2048 : Shape := ⟨2, ![256, 2048]⟩
abbrev S256 : Shape := ⟨1, ![256]⟩
abbrev S256x1 : Shape := ⟨2, ![256, 1]⟩

abbrev nBuf : Space → Nat
  | .hbm => 31
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048x2048, .f32⟩
  | .hbm, ⟨10, _⟩ => ⟨S2048x2048, .i1⟩
  | .hbm, ⟨11, _⟩ => ⟨S_, .f32⟩
  | .hbm, ⟨12, _⟩ => ⟨S_, .f32⟩
  | .hbm, ⟨13, _⟩ => ⟨S2048x2048, .f32⟩
  | .hbm, ⟨14, _⟩ => ⟨S2048x2048, .i1⟩
  | .hbm, ⟨15, _⟩ => ⟨S_, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | .hbm, ⟨27, _⟩ => ⟨S2048x2048, .bf16⟩
  | .hbm, ⟨28, _⟩ => ⟨S16384x2048, .f32⟩
  | .hbm, ⟨29, _⟩ => ⟨S16384x2048, .f32⟩
  | .hbm, ⟨30, _⟩ => ⟨S2x8192x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_cst_4 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_cst_5 : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  bitsLt_bf16_f32 : FTy.bits .bf16 < FTy.bits .f32
  transposes_S2048x2048_S2048x2048_1_0 : S2048x2048.Transposes [1, 0] S2048x2048
  shapeCasts_S2x8192x2048_S16384x2048 : S2x8192x2048.ShapeCasts S16384x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S16384x2048_S2x8192x2048 : S16384x2048.ShapeCasts S2x8192x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S16384x2048.size a
  hwx0_2 : ∀ i : grid0.Coords, EltTy.bits .f32 = 32 ∨ (Rect.block (s := S16384x2048) S256x2048.size (cc0_transform_2 i) (hinb0_2 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v16) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x8192x2048 : Shape := ⟨3, ![2, 8192, 2048]⟩
abbrev S2048x2048 : Shape := ⟨2, ![2048, 2048]⟩
abbrev S_ : Shape := ⟨0, ![]⟩
abbrev S2x8192 : Shape := ⟨2, ![2, 8192]⟩
abbrev S2x8192x1 : Shape := ⟨3, ![2, 8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2x8192x2048, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x2048, .f32⟩
  | .hbm, ⟨14, _⟩ => ⟨S2x8192x2048, .f32⟩
  | .hbm, ⟨15, _⟩ => ⟨S2x8192x2048, .f32⟩
  | .hbm, ⟨16, _⟩ => ⟨S_, .i32⟩
  | .hbm, ⟨17, _⟩ => ⟨S_, .i32⟩
  | .hbm, ⟨18, _⟩ => ⟨S_, .f32⟩
  | .hbm, ⟨19, _⟩ => ⟨S2x8192x2048, .f32⟩
  | .hbm, ⟨20, _⟩ => ⟨S2x8192x2048, .f32⟩
  | .hbm, ⟨21, _⟩ => ⟨S_, .f32⟩
  | .hbm, ⟨22, _⟩ => ⟨S2x8192x2048, .f32⟩
  | .hbm, ⟨23, _⟩ => ⟨S2x8192x2048, .f32⟩
  | .hbm, ⟨24, _⟩ => ⟨S2048x2048, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048x2048, .f32⟩
  | .hbm, ⟨32, _⟩ => ⟨S2048x2048, .i1⟩
  | .hbm, ⟨33, _⟩ => ⟨S_, .f32⟩
  | .hbm, ⟨34, _⟩ => ⟨S_, .f32⟩
  | .hbm, ⟨35, _⟩ => ⟨S2048x2048, .f32⟩
  | .hbm, ⟨36, _⟩ => ⟨S2048x2048, .i1⟩
  | .hbm, ⟨37, _⟩ => ⟨S_, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2x8192x2048, .f32⟩
  | .hbm, ⟨49, _⟩ => ⟨S2x8192x2048, .f32⟩
  | .hbm, ⟨50, _⟩ => ⟨S2x8192x2048, .f32⟩
  | .hbm, ⟨51, _⟩ => ⟨S_, .f32⟩
  | .hbm, ⟨52, _⟩ => ⟨S2x8192x2048, .f32⟩
  | .hbm, ⟨53, _⟩ => ⟨S2x8192x2048, .f32⟩
  | .hbm, ⟨54, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_c_2 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_cst_4 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_6 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_7 : Ref sig .tc := ⟨.hbm, 37, rfl⟩
abbrev main_cst_8 : Ref sig .tc := ⟨.hbm, 38, rfl⟩
abbrev main_call3_v0 : Ref sig .tc := ⟨.hbm, 39, rfl⟩
abbrev main_call3_v1 : Ref sig .tc := ⟨.hbm, 40, rfl⟩
abbrev main_v19 : Ref sig .tc := ⟨.hbm, 41, rfl⟩
abbrev main_cst_9 : Ref sig .tc := ⟨.hbm, 42, rfl⟩
abbrev main_call4_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call5_cst : Ref sig .tc := ⟨.hbm, 51, rfl⟩
abbrev main_call5_v0 : Ref sig .tc := ⟨.hbm, 52, rfl⟩
abbrev main_v27 : Ref sig .tc := ⟨.hbm, 53, rfl⟩
abbrev main_v28 : Ref sig .tc := ⟨.hbm, 54, rfl⟩

abbrev nD : Nat := 1
abbrev τ : Topo := Topo.v7x

variable {F : FTy → Type} [FloatOps F]

class Facts₀ : Prop where
  reducesTo_S2x8192x2048_S2x8192_d2 : S2x8192x2048.ReducesTo [2] S2x8192
  h_S_ : 0 < S_.numel
  bcast_S2x8192_S2x8192x1_0_1 : S2x8192.BroadcastsInDim S2x8192x1 (![0, 1] : Fin 2 → Fin S2x8192x1.rank)
  bcast_S_S2x8192x1 : S_.BroadcastsInDim S2x8192x1 (![] : Fin 0 → Fin S2x8192x1.rank)
  bcast_S2x8192x1_S2x8192x2048_0_1_2 : S2x8192x1.BroadcastsInDim S2x8192x2048 (![0, 1, 2] : Fin 3 → Fin S2x8192x2048.rank)
  bcast_S_S2x8192x2048 : S_.BroadcastsInDim S2x8192x2048 (![] : Fin 0 → Fin S2x8192x2048.rank)
  reducesTo_S2048x2048_S_d0_1 : S2048x2048.ReducesTo [0, 1] S_
  bcast_S_S2048x2048 : S_.BroadcastsInDim S2048x2048 (![] : Fin 0 → Fin S2048x2048.rank)
  dot_S2x8192x2048_S2048x2048_S2x8192x2048_2_1_01_0_n_n_wf : DotDims.WF S2x8192x2048 S2048x2048 S2x8192x2048 [2] [1] [0, 1] [0] [] []

variable [Facts₀]

def dot_S2x8192x2048_S2048x2048_S2x8192x2048_2_1_01_0_n_n : DotDims S2x8192x2048 S2048x2048 S2x8192x2048 where
  lhsContracting := [2]
  rhsContracting := [1]
  lhsNonContracting := [0, 1]
  rhsNonContracting := [0]
  lhsBatch := []
  rhsBatch := []
  wf := dot_S2x8192x2048_S2048x2048_S2x8192x2048_2_1_01_0_n_n_wf

class Facts : Prop extends Facts₀ where

variable [Facts]
-- ==== Proof.Spec.lean ====
/-
  The quantized linear layer followed by a squared rectifier, one output entry at a time.

  An entry depends on one ROW of the activations (2048 numbers) and one COLUMN of the dequantized weight matrix
  (2048 numbers). The row is quantized against its own largest magnitude: with `s = max(1e-5, max_k |row k|)` each
  entry becomes `q k = clamp(roundeven(row k * (127 / s)), -127, 127)`; the entry of the result is
  `relu((∑ k, q k * w k) / s) ^ 2`. Every operation is the exact one on the extended reals, so the
  formula is the same whether the rows are taken from a [2, 8192, 2048] array or from its [16384, 2048] flattening,
  and whether the contraction runs over a weight matrix stored [out, in] or over its transpose stored [in, out].
-/
import Idealize.ShloMosaic.PureOps.Ideal
import Idealize.ShloMosaic.Lib.ValueIdx

noncomputable section

namespace Cert.BitLinear

open Idealize.ShloMosaic Idealize.ShloMosaic.ValueIdx

/-- The largest magnitude among a row's 2048 entries, the maximum taken from `-∞`. -/
def rowAbsMax (row : Fin 2048 → EReal) : EReal :=
  (Finset.univ : Finset (Fin 2048)).fold max (Ideal.ofBits .f32 0xFF800000#32) (fun k => max (row k) (-(row k)))

/-- The row's quantization scale: its largest magnitude, but at least the f32 nearest to 1e-5. -/
def rowScale (row : Fin 2048 → EReal) : EReal :=
  max (Ideal.ofBits .f32 0x3727C5AC#32) (rowAbsMax row)

/-- Entry `k` of the quantized row: `row k · (127 / scale)` rounded to the nearest integer, ties to even, then clamped to [-127, 127]. -/
def rowQuant (row : Fin 2048 → EReal) (k : Fin 2048) : EReal :=
  min (Ideal.ofBits .f32 0x42FE0000#32)
    (max (Ideal.ofBits .f32 0xC2FE0000#32)
      (Ideal.liftRound Ideal.roundHalfEven (row k * Ideal.div (Ideal.ofBits .f32 0x42FE0000#32) (rowScale row))))

/-- One entry of the result: the quantized row against a weight column, brought back by the row's scale, rectified and squared. -/
def entry (row w : Fin 2048 → EReal) : EReal :=
  max (Ideal.div (∑ k : Fin 2048, rowQuant row k * w k) (rowScale row)) (Ideal.ofBits .f32 0x00000000#32)
    * max (Ideal.div (∑ k : Fin 2048, rowQuant row k * w k) (rowScale row)) (Ideal.ofBits .f32 0x00000000#32)

/-- The result over the [2, 8192, 2048] activations `x` and a weight matrix `W` stored [out, in]: entry (b, s, o) is
    row (b, s) of `x` against row `o` of `W`. -/
def result3 (x : (⟨3, ![2, 8192, 2048]⟩ : Shape).Idx → EReal) (W : (⟨2, ![2048, 2048]⟩ : Shape).Idx → EReal) :
    (⟨3, ![2, 8192, 2048]⟩ : Shape).Idx → EReal :=
  fun i => entry (fun k => x (ix3 (i 0) (i 1) k)) (fun k => W (ix2 (i 2) k))

/-- The same over the flattened [16384, 2048] activations `X` and the weight matrix TRANSPOSED, `Wt` stored [in, out]:
    entry (r, o) is row `r` of `X` against column `o` of `Wt`. -/
def result2 (X : (⟨2, ![16384, 2048]⟩ : Shape).Idx → EReal) (Wt : (⟨2, ![2048, 2048]⟩ : Shape).Idx → EReal) :
    (⟨2, ![16384, 2048]⟩ : Shape).Idx → EReal :=
  fun j => entry (fun k => X (ix2 (j 0) k)) (fun k => Wt (ix2 k (j 1)))

end Cert.BitLinear

end
-- ==== Proof.LibIdx.lean ====
/-
  Sums over a rank-1 index set by its one coordinate, and the column forms of a shape cast that a sum with
  `keepdims` meets: a vector [a] viewed as a column [a, 1], and a one-element vector [1] viewed as [1, 1].
-/
import Idealize.ShloMosaic.Lib.Pipeline.Value
import Idealize.ShloMosaic.Lib.ValueIdx

noncomputable section

namespace Cert.LibIdx

open Idealize.ShloMosaic Idealize.ShloMosaic.ValueIdx
open scoped BigOperators

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An `[a]` vector cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Every index of a [1, 1] array is (0, 0). -/
theorem idx11_eq (y : (⟨2, ![1, 1]⟩ : Shape).Idx) : y = ix2 (0 : Fin 1) (0 : Fin 1) := by
  funext a
  match a with
  | ⟨0, _⟩ => exact Subsingleton.elim (α := Fin 1) _ _
  | ⟨1, _⟩ => exact Subsingleton.elim (α := Fin 1) _ _

end Cert.LibIdx

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.Payload.lean ====
/-
  The kernel body's stored value, read at one entry of the output block.

  The body loads a [256, 2048] block of activations and the whole [2048, 2048] weight matrix (stored [in, out]) and
  stores one [256, 2048] block. Entry (p, q) of that block depends only on row p of the activation block and on
  column q of the weight matrix, and is the specification's `entry` of the two: the lane maximum of row p gives the
  row's scale, the same scale column is broadcast once into the quantization and once into the final division, the
  matrix product into a zero accumulator is the plain sum over the contracted axis, and the change of format before
  the product is the identity on extended reals.
-/
import proofs.«143021_j6734508720681_1_alg».proof.Proof.Gen.KernelIdeal.Skeleton
import proofs.«143021_j6734508720681_1_alg».proof.Proof.Spec
import proofs.«143021_j6734508720681_1_alg».proof.Proof.LibIdx
import proofs.«143021_j6734508720681_1_alg».proof.Proof.LibContract1
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The dimension record of the body's matrix product: [256, 2048] × [2048, 2048], contracting the left operand's
    axis 1 with the right operand's axis 0. -/
abbrev D : DotDims S256x2048 S2048x2048 S256x2048 := dot_S256x2048_S2048x2048_S256x2048_1_0_0_1_n_n

/-! ## The layout operations and the two reductions, read at an index -/

/-- A column [256, 1] broadcast along the 2048 lanes reads, at (p, k), the column's entry p. -/
theorem broadcastCol_apply {α : Type} (v : S256x1.Idx → α) (h : S256x1.Broadcasts S256x2048) (p : Fin 256) (k : Fin 2048) :
    broadcastTo S256x2048 v h (ix2 p k) = v (ix2 p (0 : Fin 1)) :=
  broadcastTo_apply v h _ _ (fun a => match a with
    | ⟨0, _⟩ => by show p.val = if (256 : Nat) = 1 then 0 else p.val; rw [if_neg (by decide)]
    | ⟨1, _⟩ => by show 0 = if (1 : Nat) = 1 then 0 else k.val; rw [if_pos rfl])

/-- The lane maximum of a [256, 2048] block, from `-∞`, read at row p: the maximum over the row's 2048 entries. -/
theorem laneMax_apply (src : FVec Ideal S256x2048 .f32) (h : S256x2048.Reduces [1] S256) (hφ : FKind.Formats .f32)
    (hacc : (0xFF800000#32 : BitVec 32) = FKind.maximumf.neutral .f32 hφ) (p : Fin 256) :
    multiReduction .maximumf [1] S256 src 0xFF800000#32 h hφ hacc (ix1 p)
      = (Finset.univ : Finset (Fin 2048)).fold max (Ideal.ofBits .f32 0xFF800000#32) (fun k => src (ix2 p k)) := by
  refine (Ideal.multiReduction_maximumf_single src 0xFF800000#32 h hφ hacc (ix1 p)).trans ?_
  have hf : (src ∘ h.lift (ix1 p)) = fun k : Fin 2048 => src (ix2 p k) :=
    funext fun k => congrArg src (funext fun c => Fin.ext (by fin_cases c <;> rfl))
  exact congrArg (fun f => Finset.fold max (Ideal.ofBits .f32 0xFF800000#32) f (Finset.univ : Finset (Fin 2048))) hf

/-- Where the product's record sends a result index and a contraction index: the left operand's row is the result's row, -/
theorem lhs_row (i : S256x2048.Idx) (c : D.contr.Idx) : (D.lhsIdx i c 0).val = (i 0).val := by
  unfold DotDims.lhsIdx
  rw [dif_neg (show ¬(0 : Fin S256x2048.rank) ∈ D.lhsBatch by decide),
    dif_pos (show (0 : Fin S256x2048.rank) ∈ D.lhsNonContracting by decide)]
  rfl
/-- its column the contraction index; -/
theorem lhs_col (i : S256x2048.Idx) (c : D.contr.Idx) : (D.lhsIdx i c 1).val = (c ⟨0, by decide⟩).val :=
  D.lhsIdx_val_of_single rfl i c
/-- the right operand's row is the contraction index, -/
theorem rhs_row (i : S256x2048.Idx) (c : D.contr.Idx) : (D.rhsIdx i c 0).val = (c ⟨0, by decide⟩).val :=
  D.rhsIdx_val_of_single rfl i c
/-- its column the result's column. -/
theorem rhs_col (i : S256x2048.Idx) (c : D.contr.Idx) : (D.rhsIdx i c 1).val = (i 1).val := by
  unfold DotDims.rhsIdx
  rw [dif_neg (show ¬(1 : Fin S2048x2048.rank) ∈ D.rhsBatch by decide),
    dif_pos (show (1 : Fin S2048x2048.rank) ∈ D.rhsNonContracting by decide)]
  rfl

/-- The body's matrix product into the zero accumulator, read at (p, q): row p of the left operand against column q of
    the right one. -/
theorem product_apply (lhs : FVec Ideal S256x2048 .bf16) (rhs : FVec Ideal S2048x2048 .bf16) (p : Fin 256) (q : Fin 2048) :
    matmul D none lhs rhs (constant (F := Ideal) S256x2048 .f32 0x00000000#32) (ix2 p q)
      = ∑ k : Fin 2048, lhs (ix2 p k) * rhs (ix2 k q) :=
  Cert.LibContract1.matmul_zero_single D 2048 rfl rfl lhs rhs (ix2 p q) (fun k => ix2 p k) (fun k => ix2 k q)
    (fun k => funext fun a => Fin.ext (by
      have hk := contrEquiv1_symm_val D 2048 rfl rfl k
      match a with
      | ⟨0, _⟩ => exact lhs_row _ _
      | ⟨1, _⟩ => exact (lhs_col _ _).trans hk))
    (fun k => funext fun a => Fin.ext (by
      have hk := contrEquiv1_symm_val D 2048 rfl rfl k
      match a with
      | ⟨0, _⟩ => exact (rhs_row _ _).trans hk
      | ⟨1, _⟩ => exact rhs_col _ _))

/-! ## The body's intermediate vectors, named -/

/-- The scale column: per row, the larger of 1e-5 and the lane maximum of the magnitudes. -/
def scaleCol (x : FVec Ideal S256x2048 .f32) : FVec Ideal S256x1 .f32 :=
  maximumf (broadcast S256x1 (Scalar.ofBits (F := Ideal) .f32 0x3727C5AC#32))
    (shapeCast S256x1 (multiReduction .maximumf [1] S256 (absf x) 0xFF800000#32 reduces_S256x2048_S256 (.inl rfl) rfl) shapeCasts_S256_S256x1)

/-- The quantized block: the block times 127 over its scale column, rounded, clamped to [-127, 127], narrowed. -/
def quantBlock (x : FVec Ideal S256x2048 .f32) : FVec Ideal S256x2048 .bf16 :=
  truncf .bf16 (minimumf (broadcast S256x2048 (Scalar.ofBits (F := Ideal) .f32 0x42FE0000#32))
    (maximumf (broadcast S256x2048 (Scalar.ofBits (F := Ideal) .f32 0xC2FE0000#32))
      (roundeven (mulf x (broadcastTo S256x2048
        (divf (broadcast S256x1 (Scalar.ofBits (F := Ideal) .f32 0x42FE0000#32)) (scaleCol x)) broadcasts_S256x1_S256x2048))))) bitsLt_bf16_f32

/-- The rectified quotient of the product by the scale column. -/
def rectified (x : FVec Ideal S256x2048 .f32) (w : FVec Ideal S2048x2048 .bf16) : FVec Ideal S256x2048 .f32 :=
  maximumf (divf (matmul D none (quantBlock x) w (constant (F := Ideal) S256x2048 .f32 0x00000000#32))
      (broadcastTo S256x2048 (scaleCol x) broadcasts_S256x1_S256x2048))
    (broadcast S256x2048 (Scalar.ofBits (F := Ideal) .f32 0x00000000#32))

/-- The body's stored value is the square of the rectified quotient. -/
theorem pay_eq (x0 : Vec Ideal S256x2048 .f32) (x1 : Vec Ideal S2048x2048 .bf16) :
    k0_pay1 (F := Ideal) x0 x1 = mulf (rectified x0 x1) (rectified x0 x1) := by
  unfold k0_pay1 rectified quantBlock scaleCol
  dsimp only
  rw [shapeCast_self, shapeCast_self]

/-- The scale column at row p is the row's scale. -/
theorem scaleCol_apply (x : FVec Ideal S256x2048 .f32) (p : Fin 256) :
    scaleCol x (ix2 p (0 : Fin 1)) = BitLinear.rowScale (fun k => x (ix2 p k)) := by
  unfold scaleCol
  rw [maximumf_apply, broadcast_apply, Cert.LibIdx.shapeCast_a_a1_apply]
  refine (congrArg (max (Ideal.ofBits .f32 0x3727C5AC#32)) (laneMax_apply (absf x) reduces_S256x2048_S256 _ _ p)).trans ?_
  rfl

/-- The quantized block at (p, k) is the row's quantized entry k. -/
theorem quantBlock_apply (x : FVec Ideal S256x2048 .f32) (p : Fin 256) (k : Fin 2048) :
    quantBlock x (ix2 p k) = BitLinear.rowQuant (fun k => x (ix2 p k)) k := by
  unfold quantBlock
  rw [truncf_apply, minimumf_apply, maximumf_apply, broadcast_apply, broadcast_apply]
  show min _ (max _ (FloatOps.roundeven (x (ix2 p k) * broadcastTo S256x2048
      (divf (broadcast S256x1 (Scalar.ofBits (F := Ideal) .f32 0x42FE0000#32)) (scaleCol x)) broadcasts_S256x1_S256x2048 (ix2 p k)))) = _
  rw [broadcastCol_apply, divf_apply, broadcast_apply, scaleCol_apply]
  rfl

/-- THE BODY'S STORED VALUE at (p, q): the specification's entry of row p of the activation block and column q of the
    weight block. -/
theorem pay_apply (x0 : Vec Ideal S256x2048 .f32) (x1 : Vec Ideal S2048x2048 .bf16) (p : Fin 256) (q : Fin 2048) :
    k0_pay1 (F := Ideal) x0 x1 (ix2 p q) = BitLinear.entry (fun k => x0 (ix2 p k)) (fun k => x1 (ix2 k q)) := by
  rw [pay_eq, mulf_apply]
  have hr : rectified x0 x1 (ix2 p q)
      = max (Ideal.div (∑ k : Fin 2048, BitLinear.rowQuant (fun k => x0 (ix2 p k)) k * x1 (ix2 k q))
          (BitLinear.rowScale (fun k => x0 (ix2 p k)))) (Ideal.ofBits .f32 0x00000000#32) := by
    unfold rectified
    rw [maximumf_apply, divf_apply, broadcast_apply, product_apply, broadcastCol_apply, scaleCol_apply]
    simp only [quantBlock_apply]
    rfl
  rw [hr]
  rfl

end Cert.KernelIdeal.Body

end
-- ==== Proof.Blocks.lean ====
/-
  From what each grid point writes back to the whole [16384, 2048] output array.

  Grid point t (of 64) stages rows 256·t … 256·t + 255 of the flattened activations and the whole transposed weight
  matrix, and writes back rows 256·t … 256·t + 255 of the output. Entry (p, q) of the block it writes is the
  specification's entry of local row p and weight column q, that is, entry (256·t + p, q) of `result2` of the two
  arrays as the region finds them. The 64 row blocks cover the output array, so after the region the array is `result2`.
-/
import proofs.«143021_j6734508720681_1_alg».proof.Proof.Gen.KernelIdeal.Frame
import proofs.«143021_j6734508720681_1_alg».proof.Proof.Payload
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The three index maps over the grid: the activations' and the output's block index is (t, 0), the weight's (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Local row p of the activation block at point t is row 256·t + p of the flattened activations. -/
theorem actBlock_read (c : Dev nD) (t : Fin cfg0.N) (p : Fin 256) (k : Fin 2048) (r : Fin 16384)
    (hr : r.val = t.val * 256 + p.val) : iblk m c 0 t (ix2 p k) = V m c main_v16 (ix2 r k) := by
  obtain ⟨e0, e1, -, -, -, -⟩ := index_maps t
  show V m c main_v16 (((cfg0.win 0).blk t).view.emb (ix2 p k)) = V m c main_v16 (ix2 r k)
  refine congrArg _ (funext fun a => Fin.ext ?_)
  match a with
  | ⟨0, _⟩ => show win0_0.index t (0 : Fin 2) * 256 + 1 * p.val = r.val; omega
  | ⟨1, _⟩ => show win0_0.index t (1 : Fin 2) * 2048 + 1 * k.val = k.val; omega

/-- The weight block at any point is the whole transposed weight matrix. -/
theorem weightBlock_read (c : Dev nD) (t : Fin cfg0.N) (k q : Fin 2048) :
    iblk m c 1 t (ix2 k q) = V m c main_v15 (ix2 k q) := by
  obtain ⟨-, -, e2, e3, -, -⟩ := index_maps t
  show V m c main_v15 (((cfg0.win 1).blk t).view.emb (ix2 k q)) = V m c main_v15 (ix2 k q)
  refine congrArg _ (funext fun a => Fin.ext ?_)
  match a with
  | ⟨0, _⟩ => show win0_1.index t (0 : Fin 2) * 2048 + 1 * k.val = k.val; omega
  | ⟨1, _⟩ => show win0_1.index t (1 : Fin 2) * 2048 + 1 * q.val = q.val; omega

/-- WHAT POINT t WRITES BACK is block t of `result2` of the flattened activations and the transposed weight matrix. -/
theorem flushed_eq (c : Dev nD) (t : Fin cfg0.N) :
    (dats m 0 c).flushed 2 t
      = ((cfg0.win 2).blk t).view.read (Elt Ideal) (BitLinear.result2 (V m c main_v16) (V m c main_v15)) := by
  show (cfg0.win 2).cut (grid0.coords t) ((dats m 0 c).after 2 t) = _
  rw [after0_2]
  unfold out0_2
  rw [View.canon_unit_zero zero_offsets]
  simp only [View.ld_unit_zero (S := S256x2048) zero_offsets, View.ld_unit_zero (S := S2048x2048) zero_offsets]
  funext y
  obtain ⟨p, q, rfl⟩ : ∃ (p : Fin 256) (q : Fin 2048), y = ix2 p q := ⟨y 0, y 1, eq_ix2 y⟩
  have ht : t.val < 64 := by have := t.isLt; have hN : cfg0.N = 64 := N_0; omega
  have hlt : t.val * 256 + p.val < 16384 := by have := p.isLt; omega
  obtain ⟨-, -, -, -, e4, e5⟩ := index_maps t
  have hemb : ((cfg0.win 2).blk t).view.emb (ix2 p q) = ix2 (⟨t.val * 256 + p.val, hlt⟩ : Fin 16384) q :=
    funext fun a => Fin.ext (by
      match a with
      | ⟨0, _⟩ => show win0_2.index t (0 : Fin 2) * 256 + 1 * p.val = t.val * 256 + p.val; omega
      | ⟨1, _⟩ => show win0_2.index t (1 : Fin 2) * 2048 + 1 * q.val = q.val; omega)
  show k0_pay1 (iblk m c 0 t) (iblk m c 1 t) (ix2 p q)
      = BitLinear.result2 (V m c main_v16) (V m c main_v15) (((cfg0.win 2).blk t).view.emb (ix2 p q))
  rw [hemb]
  refine (Body.pay_apply (iblk m c 0 t) (iblk m c 1 t) p q).trans ?_
  have h0 : (fun k : Fin 2048 => iblk m c 0 t (ix2 p k))
      = fun k => V m c main_v16 (ix2 (⟨t.val * 256 + p.val, hlt⟩ : Fin 16384) k) :=
    funext fun k => actBlock_read m c t p k _ rfl
  have h1 : (fun k : Fin 2048 => iblk m c 1 t (ix2 k q)) = fun k => V m c main_v15 (ix2 k q) :=
    funext fun k => weightBlock_read m c t k q
  rw [h0, h1]
  rfl

/-- An index of the output array is in point t's block iff each coordinate is in the block's range on its axis. -/
theorem mem_blk (t : Fin cfg0.N) (i : S16384x2048.Idx) :
    i ∈ ((cfg0.win 2).blk t).view.set ↔ ∀ a : Fin 2, win0_2.index t a * S256x2048.size a ≤ (i a).val
      ∧ (i a).val < win0_2.index t a * S256x2048.size a + S256x2048.size a := by
  show i ∈ ((View.whole main_v17).slice (win0_2.rect t)).set ↔ _
  rw [View.set_slice_whole, Rect.mem_set_unit]
  exact Iff.rfl

/-- Every index of the output array is in the block of the point its row falls in. -/
theorem cover (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  have hN : cfg0.N = 64 := N_0
  have htl : (i 0).val / 256 < cfg0.N := by rw [hN]; omega
  obtain ⟨-, -, -, -, e4, e5⟩ := index_maps ⟨(i 0).val / 256, htl⟩
  refine ⟨⟨(i 0).val / 256, htl⟩, flush0_2 _, ?_⟩
  rw [mem_blk]
  intro a
  match a with
  | ⟨0, _⟩ =>
    show win0_2.index ⟨(i 0).val / 256, htl⟩ (0 : Fin 2) * 256 ≤ (i 0).val
      ∧ (i 0).val < win0_2.index ⟨(i 0).val / 256, htl⟩ (0 : Fin 2) * 256 + 256
    rw [e4]; show (i 0).val / 256 * 256 ≤ (i 0).val ∧ (i 0).val < (i 0).val / 256 * 256 + 256; omega
  | ⟨1, _⟩ =>
    show win0_2.index ⟨(i 0).val / 256, htl⟩ (1 : Fin 2) * 2048 ≤ (i 1).val
      ∧ (i 1).val < win0_2.index ⟨(i 0).val / 256, htl⟩ (1 : Fin 2) * 2048 + 2048
    rw [e5]; omega

/-- THE OUTPUT ARRAY after the region. -/
theorem final (c : Dev nD) :
    (dats m 0 c).arrAt 2 cfg0.N = BitLinear.result2 (V m c main_v16) (V m c main_v15) :=
  (dats m 0 c).arrAt_eq_of_cover 2 _ (fun t _ => flushed_eq m c t) (fun i => cover i)

end Cert.KernelIdeal.Blocks

end
-- ==== Proof.Flatten.lean ====
/-
  Flattening the two leading axes of the activations changes nothing row by row.

  Row (b, s) of the [2, 8192, 2048] activations is row b·8192 + s of their [16384, 2048] reshape, and the result is
  computed one row at a time; so the [16384, 2048] result of the flattened activations against the transposed weight
  matrix, reshaped back to [2, 8192, 2048], is the [2, 8192, 2048] result of the activations against the weight matrix.
-/
import proofs.«143021_j6734508720681_1_alg».proof.Proof.Spec
import Idealize.ShloMosaic.Lib.Pipeline.Value
import Idealize.ShloMosaic.Lib.ValueIdx

noncomputable section

namespace Cert.BitLinear

open Idealize.ShloMosaic Idealize.ShloMosaic.ValueIdx

/-- The flattened activations at (b·8192 + s, k) are the activations at (b, s, k). -/
theorem flat_apply (x : (⟨3, ![2, 8192, 2048]⟩ : Shape).Idx → EReal)
    (h : (⟨3, ![2, 8192, 2048]⟩ : Shape).ShapeCasts ⟨2, ![16384, 2048]⟩) (b : Fin 2) (s : Fin 8192) (k : Fin 2048)
    (r : Fin 16384) (hr : r.val = b.val * 8192 + s.val) :
    shapeCast ⟨2, ![16384, 2048]⟩ x h (ix2 r k) = x (ix3 b s k) :=
  shapeCast_apply x h _ _ (by
    rw [Shape.rowMajor_val_three, Shape.rowMajor_val_two]
    show (b.val * 8192 + s.val) * 2048 + k.val = r.val * 2048 + k.val
    rw [hr])

/-- The flattened result against the transposed weight matrix, reshaped back, is the result. -/
theorem result2_reshape (x : (⟨3, ![2, 8192, 2048]⟩ : Shape).Idx → EReal)
    (W Wt : (⟨2, ![2048, 2048]⟩ : Shape).Idx → EReal) (hW : ∀ k o : Fin 2048, Wt (ix2 k o) = W (ix2 o k))
    (h1 : (⟨3, ![2, 8192, 2048]⟩ : Shape).ShapeCasts ⟨2, ![16384, 2048]⟩)
    (h2 : (⟨2, ![16384, 2048]⟩ : Shape).ShapeCasts ⟨3, ![2, 8192, 2048]⟩) :
    shapeCast ⟨3, ![2, 8192, 2048]⟩ (result2 (shapeCast ⟨2, ![16384, 2048]⟩ x h1) Wt) h2 = result3 x W := by
  funext i
  obtain ⟨b, s, o, rfl⟩ : ∃ (b : Fin 2) (s : Fin 8192) (o : Fin 2048), i = ix3 b s o := ⟨i 0, i 1, i 2, eq_ix3 i⟩
  have hlt : b.val * 8192 + s.val < 16384 := by have := b.isLt; have := s.isLt; omega
  refine (shapeCast_apply _ h2 (ix3 b s o) (ix2 (⟨b.val * 8192 + s.val, hlt⟩ : Fin 16384) o) (by
    rw [Shape.rowMajor_val_two, Shape.rowMajor_val_three]
    rfl)).trans ?_
  have hx : (fun k : Fin 2048 => shapeCast ⟨2, ![16384, 2048]⟩ x h1 (ix2 (⟨b.val * 8192 + s.val, hlt⟩ : Fin 16384) k))
      = fun k => x (ix3 b s k) := funext fun k => flat_apply x h1 b s k _ rfl
  have hw : (fun k : Fin 2048 => Wt (ix2 k o)) = fun k => W (ix2 o k) := funext fun k => hW k o
  show entry (fun k : Fin 2048 => shapeCast ⟨2, ![16384, 2048]⟩ x h1 (ix2 (⟨b.val * 8192 + s.val, hlt⟩ : Fin 16384) k))
      (fun k : Fin 2048 => Wt (ix2 k o)) = entry (fun k => x (ix3 b s k)) (fun k => W (ix2 o k))
  rw [hx, hw]

end Cert.BitLinear

end
-- ==== Proof.KernelHost.lean ====
/-
  The host operations around the region of the kernel program.

  Before the region the program flattens the activations to [16384, 2048] and prepares the weight operand: the
  dequantized ternary matrix — the same chain of operations the reference applies to the same argument — narrowed to
  bf16 (the identity on extended reals) and transposed to [in, out]. After the region it reshapes the output array back
  to [2, 8192, 2048]. With the output array known to be `result2` of the two operands, the result buffer is `result3` of
  the activations and the dequantized weight matrix.
-/
import proofs.«143021_j6734508720681_1_alg».proof.Proof.Blocks
import proofs.«143021_j6734508720681_1_alg».proof.Proof.Flatten
import proofs.«143021_j6734508720681_1_alg».proof.Proof.RefRead
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-- The dequantized weight matrix [out, in] of a weight argument: the reference's stage of that name. -/
abbrev dequant (w : S2048x2048.Idx → EReal) : S2048x2048.Idx → EReal :=
  Cert.ReferenceIdeal.Read.val_main_v23 (F := Ideal) w

/-! ## The two outlined selections, over the plain builders -/

theorem select_neg_plain : (hostOps0_1 : List (HloOp τ sig (Elt Ideal))) =
    [ unary main_cst_3 main_call0_v0 (broadcastInDim S2048x2048 ![] bcast_S_S2048x2048 :
        BufTy.Contents (Elt Ideal) (⟨S_, .f32⟩ : BufTy) → BufTy.Contents (Elt Ideal) (⟨S2048x2048, .f32⟩ : BufTy)),
      unary main_cst_4 main_call0_v1 (broadcastInDim S2048x2048 ![] bcast_S_S2048x2048 :
        BufTy.Contents (Elt Ideal) (⟨S_, .f32⟩ : BufTy) → BufTy.Contents (Elt Ideal) (⟨S2048x2048, .f32⟩ : BufTy)),
      ternary main_v8 main_call0_v0 main_call0_v1 main_v9 (select :
        BufTy.Contents (Elt Ideal) (⟨S2048x2048, .i1⟩ : BufTy) → BufTy.Contents (Elt Ideal) (⟨S2048x2048, .f32⟩ : BufTy)
          → BufTy.Contents (Elt Ideal) (⟨S2048x2048, .f32⟩ : BufTy) → BufTy.Contents (Elt Ideal) (⟨S2048x2048, .f32⟩ : BufTy)) ] := rfl

theorem select_pos_plain : (hostOps0_3 : List (HloOp τ sig (Elt Ideal))) =
    [ unary main_cst_5 main_call1_v0 (broadcastInDim S2048x2048 ![] bcast_S_S2048x2048 :
        BufTy.Contents (Elt Ideal) (⟨S_, .f32⟩ : BufTy) → BufTy.Contents (Elt Ideal) (⟨S2048x2048, .f32⟩ : BufTy)),
      ternary main_v5 main_call1_v0 main_v9 main_v10 (select :
        BufTy.Contents (Elt Ideal) (⟨S2048x2048, .i1⟩ : BufTy) → BufTy.Contents (Elt Ideal) (⟨S2048x2048, .f32⟩ : BufTy)
          → BufTy.Contents (Elt Ideal) (⟨S2048x2048, .f32⟩ : BufTy) → BufTy.Contents (Elt Ideal) (⟨S2048x2048, .f32⟩ : BufTy)) ] := rfl

/-! ## The operands as the region finds them -/

set_option maxHeartbeats 1000000 in
/-- The first operand: the activations reshaped to [16384, 2048]. -/
theorem V_flat (c : Dev nD) :
    (V m c main_v16 : S16384x2048.Idx → EReal)
      = shapeCast S16384x2048 (m ((c : Thread nD τ).loc main_arg0)) shapeCasts_S2x8192x2048_S16384x2048 := by
  dsimp only [V, V0]
  simp only [hostOps0, hostOps0_1, hostOps0_2, hostOps0_3, hostOps0_4, List.flatten_cons, List.flatten_nil, List.append_nil,
    List.cons_append, List.nil_append]
  after_results_simp
  rfl

attribute [local irreducible] Host.reduceAdd in
set_option maxRecDepth 16384 in
set_option maxHeartbeats 1000000 in
/-- The second operand: the dequantized weight matrix, narrowed and transposed. -/
theorem V_weight (c : Dev nD) :
    (V m c main_v15 : S2048x2048.Idx → EReal)
      = transpose S2048x2048 [1, 0]
          (truncf .bf16 (dequant (m ((c : Thread nD τ).loc main_arg1)) : FVec Ideal S2048x2048 .f32) bitsLt_bf16_f32 : FVec Ideal S2048x2048 .bf16)
          transposes_S2048x2048_S2048x2048_1_0 := by
  dsimp only [V, V0]
  rw [select_neg_plain, select_pos_plain]
  simp only [hostOps0, hostOps0_2, hostOps0_4, List.flatten_cons, List.flatten_nil, List.append_nil,
    List.cons_append, List.nil_append]
  after_results_simp
  rfl

/-- The transposed operand at (k, o) is the dequantized weight matrix at (o, k). -/
theorem weight_transposed (w : S2048x2048.Idx → EReal) (k o : Fin 2048) :
    transpose S2048x2048 [1, 0] (truncf .bf16 (dequant w : FVec Ideal S2048x2048 .f32) bitsLt_bf16_f32 : FVec Ideal S2048x2048 .bf16)
        transposes_S2048x2048_S2048x2048_1_0 (ix2 k o)
      = dequant w (ix2 o k) :=
  transpose_apply [1, 0] _ transposes_S2048x2048_S2048x2048_1_0 (ix2 k o) (ix2 o k)
    (fun b => match b with | ⟨0, _⟩ => rfl | ⟨1, _⟩ => rfl)

/-! ## After the region -/

set_option maxHeartbeats 1000000 in
/-- The result buffer is the output array reshaped to [2, 8192, 2048]. -/
theorem tail_eq (c : Dev nD) :
    (Pipeline.afterTail₀ cfgs (dats m) 0 (V0 m) [hostOps1] c main_v18 : S2x8192x2048.Idx → EReal)
      = shapeCast S2x8192x2048 ((dats m 0 c).arrAt 2 cfg0.N) shapeCasts_S16384x2048_S2x8192x2048 := by
  unfold Pipeline.afterTail₀
  show StableHlo.after hostOps1 _ (Proc.devRef .tc main_v18) = _
  after_results
  have h : Pipeline.withArrays (cfgs 0).spec c (V0 m c) (fun w => (dats m 0 c).arrAt w (cfgs 0).N) (Proc.devRef .tc main_v17)
      = (dats m 0 c).arrAt 2 cfg0.N :=
    Pipeline.withArrays_arr spec0 launch0.win.arr_inj c (V0 m c) _ 2
  rw [h]
  rfl

/-- THE RESULT BUFFER after the program: `result3` of the activations and the dequantized weight matrix. -/
theorem out_eq (c : Dev nD) :
    (Pipeline.afterTail₀ cfgs (dats m) 0 (V0 m) [hostOps1] c main_v18 : S2x8192x2048.Idx → EReal)
      = BitLinear.result3 (m ((c : Thread nD τ).loc main_arg0)) (dequant (m ((c : Thread nD τ).loc main_arg1))) := by
  refine (tail_eq m c).trans ?_
  rw [Blocks.final m c, V_flat m c, V_weight m c]
  exact BitLinear.result2_reshape _ _ _ (fun k o => weight_transposed _ k o) _ _

end Cert.KernelIdeal.Host

end
-- ==== Proof.KernelRun.lean ====
/-
  The kernel program's run with its result named: every weakly fair execution ends with the result buffer at the
  specification's `result3` of the activations and the dequantized weight matrix, and the arguments unchanged.
-/
import proofs.«143021_j6734508720681_1_alg».proof.Proof.KernelHost

noncomputable section

namespace Cert.KernelIdeal.Host

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v18)
        = BitLinear.result3 (m ((c.tc : Thread nD τ).loc main_arg0)) (dequant (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v18 (Pipeline.mem_restRefs_of main_v18 (by decide) (by decide))).trans (out_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Host

end
-- ==== Proof.RefRun.lean ====
/-
  The reference program's run, read back.

  The reference is a straight line of 53 host operations: the per-row scale of the activations (absolute value, maximum
  over the last axis, the floor 1e-5), the quantization (times 127 over the scale, round to even, clamp to ±127), the
  ternary weight matrix (mean magnitude, two comparisons, two selections, times the mean), the contraction of the two, the
  division by the scale, the rectifier and the square. The outlined functions (the two clips, the rounding, the two
  selections, the rectifier) stand here inlined at their calls, each operation written over the buffers of its call.
  Every weakly fair execution ends with each buffer at the fold of these operations over the launch contents.
-/
import proofs.«143021_j6734508720681_1_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

set_option quotPrecheck false
local notation "X3" => BufTy.Contents (Elt F) (⟨S2x8192x2048, .f32⟩ : BufTy)
local notation "X2" => BufTy.Contents (Elt F) (⟨S2x8192, .f32⟩ : BufTy)
local notation "X1" => BufTy.Contents (Elt F) (⟨S2x8192x1, .f32⟩ : BufTy)
local notation "X0" => BufTy.Contents (Elt F) (⟨S_, .f32⟩ : BufTy)
local notation "I0" => BufTy.Contents (Elt F) (⟨S_, .i32⟩ : BufTy)
local notation "W2" => BufTy.Contents (Elt F) (⟨S2048x2048, .f32⟩ : BufTy)
local notation "B2" => BufTy.Contents (Elt F) (⟨S2048x2048, .i1⟩ : BufTy)
set_option quotPrecheck true

/-- @main's 53 operations, in order, the outlined functions' operations in their calls' places. -/
abbrev ops : List (HloOp τ sig (Elt F)) :=
  [ unary main_arg0 main_v0 (Host.absf : X3 → X3),
    nullary main_cst (constant S_ .f32 0xFF800000#32),
    binary main_v0 main_cst main_v1 ((fun x v => Host.reduce FloatOps.maximumf x v reducesTo_S2x8192x2048_S2x8192_d2 h_S_) : X3 → X0 → X2),
    unary main_v1 main_v2 (broadcastInDim S2x8192x1 ![0, 1] bcast_S2x8192_S2x8192x1_0_1 : X2 → X1),
    nullary main_cst_0 (constant S_ .f32 0x3727C5AC#32),
    unary main_cst_0 main_call0_v0 (id : X0 → X0),
    unary main_call0_v0 main_call0_v1 (broadcastInDim S2x8192x1 ![] bcast_S_S2x8192x1 : X0 → X1),
    binary main_call0_v1 main_v2 main_v3 (maximumf : X1 → X1 → X1),
    nullary main_cst_1 (constant S_ .f32 0x42FE0000#32),
    unary main_cst_1 main_v4 (broadcastInDim S2x8192x1 ![] bcast_S_S2x8192x1 : X0 → X1),
    binary main_v4 main_v3 main_v5 (Host.divf : X1 → X1 → X1),
    unary main_v5 main_v6 (broadcastInDim S2x8192x2048 ![0, 1, 2] bcast_S2x8192x1_S2x8192x2048_0_1_2 : X1 → X3),
    binary main_arg0 main_v6 main_v7 (mulf : X3 → X3 → X3),
    unary main_v7 main_v8 (Host.roundeven : X3 → X3),
    nullary main_c (constantI S_ 32 4294967169#32),
    nullary main_c_2 (constantI S_ 32 127#32),
    unary main_c main_call2_v0 (sitofp .f32 : I0 → X0),
    unary main_call2_v0 main_call2_v1 (broadcastInDim S2x8192x2048 ![] bcast_S_S2x8192x2048 : X0 → X3),
    binary main_call2_v1 main_v8 main_call2_v2 (maximumf : X3 → X3 → X3),
    unary main_c_2 main_call2_v3 (sitofp .f32 : I0 → X0),
    unary main_call2_v3 main_call2_v4 (broadcastInDim S2x8192x2048 ![] bcast_S_S2x8192x2048 : X0 → X3),
    binary main_call2_v4 main_call2_v2 main_v9 (minimumf : X3 → X3 → X3),
    unary main_arg1 main_v10 (Host.absf : W2 → W2),
    nullary main_cst_3 (constant S_ .f32 0x00000000#32),
    binary main_v10 main_cst_3 main_v11 ((fun x v => Host.reduceAdd x v reducesTo_S2048x2048_S_d0_1 h_S_) : W2 → X0 → X0),
    nullary main_cst_4 (constant S_ .f32 0x4A800000#32),
    binary main_v11 main_cst_4 main_v12 (Host.divf : X0 → X0 → X0),
    nullary main_cst_5 (constant S_ .f32 0x3F000000#32),
    binary main_cst_5 main_v12 main_v13 (mulf : X0 → X0 → X0),
    unary main_v13 main_v14 (broadcastInDim S2048x2048 ![] bcast_S_S2048x2048 : X0 → W2),
    binary main_arg1 main_v14 main_v15 (cmpf .ogt : W2 → W2 → B2),
    nullary main_cst_6 (constant S_ .f32 0xBF000000#32),
    binary main_cst_6 main_v12 main_v16 (mulf : X0 → X0 → X0),
    unary main_v16 main_v17 (broadcastInDim S2048x2048 ![] bcast_S_S2048x2048 : X0 → W2),
    binary main_arg1 main_v17 main_v18 (cmpf .olt : W2 → W2 → B2),
    nullary main_cst_7 (constant S_ .f32 0xBF800000#32),
    nullary main_cst_8 (constant S_ .f32 0x00000000#32),
    unary main_cst_7 main_call3_v0 (broadcastInDim S2048x2048 ![] bcast_S_S2048x2048 : X0 → W2),
    unary main_cst_8 main_call3_v1 (broadcastInDim S2048x2048 ![] bcast_S_S2048x2048 : X0 → W2),
    ternary main_v18 main_call3_v0 main_call3_v1 main_v19 (select : B2 → W2 → W2 → W2),
    nullary main_cst_9 (constant S_ .f32 0x3F800000#32),
    unary main_cst_9 main_call4_v0 (broadcastInDim S2048x2048 ![] bcast_S_S2048x2048 : X0 → W2),
    ternary main_v15 main_call4_v0 main_v19 main_v20 (select : B2 → W2 → W2 → W2),
    unary main_v20 main_v21 (id : W2 → W2),
    unary main_v12 main_v22 (broadcastInDim S2048x2048 ![] bcast_S_S2048x2048 : X0 → W2),
    binary main_v21 main_v22 main_v23 (mulf : W2 → W2 → W2),
    binary main_v9 main_v23 main_v24 ((fun l r => Host.dotGeneral dot_S2x8192x2048_S2048x2048_S2x8192x2048_2_1_01_0_n_n none l r) : X3 → W2 → X3),
    unary main_v3 main_v25 (broadcastInDim S2x8192x2048 ![0, 1, 2] bcast_S2x8192x1_S2x8192x2048_0_1_2 : X1 → X3),
    binary main_v24 main_v25 main_v26 (Host.divf : X3 → X3 → X3),
    nullary main_call5_cst (constant S_ .f32 0x00000000#32),
    unary main_call5_cst main_call5_v0 (broadcastInDim S2x8192x2048 ![] bcast_S_S2x8192x2048 : X0 → X3),
    binary main_v26 main_call5_v0 main_v27 (maximumf : X3 → X3 → X3),
    binary main_v27 main_v27 main_v28 (mulf : X3 → X3 → X3) ]

set_option maxRecDepth 8192 in
/-- @main is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨unary_bufs_sub .., nullary_bufs_sub .., binary_bufs_sub .., unary_bufs_sub .., nullary_bufs_sub .., unary_bufs_sub ..,
    unary_bufs_sub .., binary_bufs_sub .., nullary_bufs_sub .., unary_bufs_sub .., binary_bufs_sub .., unary_bufs_sub ..,
    binary_bufs_sub .., unary_bufs_sub .., nullary_bufs_sub .., nullary_bufs_sub .., unary_bufs_sub .., unary_bufs_sub ..,
    binary_bufs_sub .., unary_bufs_sub .., unary_bufs_sub .., binary_bufs_sub .., unary_bufs_sub .., nullary_bufs_sub ..,
    binary_bufs_sub .., nullary_bufs_sub .., binary_bufs_sub .., nullary_bufs_sub .., binary_bufs_sub .., unary_bufs_sub ..,
    binary_bufs_sub .., nullary_bufs_sub .., binary_bufs_sub .., unary_bufs_sub .., binary_bufs_sub .., nullary_bufs_sub ..,
    nullary_bufs_sub .., unary_bufs_sub .., unary_bufs_sub .., ternary_bufs_sub .., nullary_bufs_sub .., unary_bufs_sub ..,
    ternary_bufs_sub .., unary_bufs_sub .., unary_bufs_sub .., binary_bufs_sub .., binary_bufs_sub .., unary_bufs_sub ..,
    binary_bufs_sub .., nullary_bufs_sub .., unary_bufs_sub .., binary_bufs_sub .., binary_bufs_sub ..⟩

/-- On every device, from any memory with zero counters: every weakly fair execution of @main terminates with each
    buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.Straight

end
-- ==== Proof.RefFold.lean ====
/-
  The fold of the reference's 53 operations at the result buffer is the last stage of the stage-by-stage reading, of the
  two argument buffers' contents; the argument buffers themselves are written by no operation.
-/
import proofs.«143021_j6734508720681_1_alg».proof.Proof.RefRun
import proofs.«143021_j6734508720681_1_alg».proof.Proof.RefRead

noncomputable section

namespace Cert.ReferenceIdeal.Straight

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

attribute [local irreducible] Host.reduce in
set_option maxRecDepth 16384 in
set_option maxHeartbeats 1000000 in
/-- The result buffer after the 53 operations: the last stage. -/
theorem out_eq (V : Valuation τ sig (Elt F)) :
    after ops V (Proc.devRef .tc main_v28)
      = val_main_v28 (F := F) (V (Proc.devRef .tc main_arg0)) (V (Proc.devRef .tc main_arg1)) := by
  after_results_simp
  rfl

set_option maxRecDepth 16384 in
set_option maxHeartbeats 1000000 in
theorem arg0_eq (V : Valuation τ sig (Elt F)) :
    after ops V (Proc.devRef .tc main_arg0) = V (Proc.devRef .tc main_arg0) := by
  after_results_simp

set_option maxRecDepth 16384 in
set_option maxHeartbeats 1000000 in
theorem arg1_eq (V : Valuation τ sig (Elt F)) :
    after ops V (Proc.devRef .tc main_arg1) = V (Proc.devRef .tc main_arg1) := by
  after_results_simp

end Cert.ReferenceIdeal.Straight

end
-- ==== Proof.Consts.lean ====
/-
  The two clip bounds as the reference spells them: the integers -127 and 127 converted to f32. At the ideal values an
  integer converts to itself, and the f32 patterns the kernel writes for the same bounds denote the same two reals.
-/
import Idealize.ShloMosaic.PureOps.Ideal

noncomputable section

namespace Cert.BitLinear.Consts

open Idealize.ShloMosaic

/-- The f32 pattern of 127.0 denotes 127. -/
theorem ofBits_127 : Ideal.ofBits .f32 0x42FE0000#32 = ((127 : ℝ) : EReal) := by
  simp [Ideal.ofBits, Ideal.ieee, -EReal.coe_mul]; norm_num

/-- The f32 pattern of -127.0 denotes -127. -/
theorem ofBits_neg127 : Ideal.ofBits .f32 0xC2FE0000#32 = ((-127 : ℝ) : EReal) := by
  simp [Ideal.ofBits, Ideal.ieee, -EReal.coe_mul]; norm_num

/-- The 32-bit integer 127 converted to f32 is the kernel's 127.0. -/
theorem sitofp_127 : FloatOps.sitofp (F := Ideal) .f32 (127#32 : BitVec 32) = Ideal.ofBits .f32 0x42FE0000#32 := by
  rw [ofBits_127]
  show (((127#32 : BitVec 32).toInt : ℝ) : EReal) = _
  norm_num [BitVec.toInt]

/-- The 32-bit integer -127 (the word 4294967169) converted to f32 is the kernel's -127.0. -/
theorem sitofp_neg127 : FloatOps.sitofp (F := Ideal) .f32 (4294967169#32 : BitVec 32) = Ideal.ofBits .f32 0xC2FE0000#32 := by
  rw [ofBits_neg127]
  show (((4294967169#32 : BitVec 32).toInt : ℝ) : EReal) = _
  norm_num [BitVec.toInt]

end Cert.BitLinear.Consts

end
-- ==== Proof.RefValue.lean ====
/-
  The reference's result, read at an index.

  At (b, s, o) the reference's last stage is the rectified square of the quotient, by the scale of row (b, s), of the
  contraction of that row's quantized entries with row o of the dequantized weight matrix — the specification's
  `result3` of the activations and the dequantized weight stage. The host's maximum over the last axis is the same
  fold of `max` from `-∞` that the specification names; the host's quotient, absolute value and rounding are the
  kernel's on extended reals; the clip bounds arrive as the integers ±127 converted to f32.
-/
import proofs.«143021_j6734508720681_1_alg».proof.Proof.RefRead
import proofs.«143021_j6734508720681_1_alg».proof.Proof.Spec
import proofs.«143021_j6734508720681_1_alg».proof.Proof.Consts
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.BitLinear

/-! ## The index maps of the layout operations, at coordinates -/

theorem idx_v25 (b : Fin 2) (s : Fin 8192) (o : Fin 2048) : idx_main_v25 (ix3 b s o) = ix3 b s (0 : Fin 1) :=
  funext fun a => Fin.ext (by match a with | ⟨0, _⟩ => rfl | ⟨1, _⟩ => rfl | ⟨2, _⟩ => rfl)
theorem idx_v6 (b : Fin 2) (s : Fin 8192) (k : Fin 2048) : idx_main_v6 (ix3 b s k) = ix3 b s (0 : Fin 1) :=
  funext fun a => Fin.ext (by match a with | ⟨0, _⟩ => rfl | ⟨1, _⟩ => rfl | ⟨2, _⟩ => rfl)
theorem idx_v2 (b : Fin 2) (s : Fin 8192) : idx_main_v2 (ix3 b s (0 : Fin 1)) = ix2 b s :=
  funext fun a => Fin.ext (by match a with | ⟨0, _⟩ => rfl | ⟨1, _⟩ => rfl)
theorem lidx_v24 (b : Fin 2) (s : Fin 8192) (o k : Fin 2048) : lidx_main_v24 (ix3 b s o) k = ix3 b s k :=
  funext fun a => Fin.ext (by match a with | ⟨0, _⟩ => rfl | ⟨1, _⟩ => rfl | ⟨2, _⟩ => rfl)
theorem ridx_v24 (b : Fin 2) (s : Fin 8192) (o k : Fin 2048) : ridx_main_v24 (ix3 b s o) k = ix2 o k :=
  funext fun a => Fin.ext (by match a with | ⟨0, _⟩ => rfl | ⟨1, _⟩ => rfl)

/-! ## The stages at coordinates -/

/-- The host's maximum over the last axis of a [2, 8192, 2048] array, from `-∞`, at (b, s): the maximum over the row. -/
theorem hostRowMax (x : FVec Ideal S2x8192x2048 .f32) (b : Fin 2) (s : Fin 8192) :
    Host.reduce FloatOps.maximumf x (constant (F := Ideal) S_ .f32 0xFF800000#32) reducesTo_S2x8192x2048_S2x8192_d2 h_S_ (ix2 b s)
      = (Finset.univ : Finset (Fin 2048)).fold max (Ideal.ofBits .f32 0xFF800000#32) (fun k => x (ix3 b s k)) := by
  have hR : S2x8192x2048.Reduces [2] S2x8192 := by decide
  rw [Host.reduce_eq_fold_single FloatOps.maximumf x _ reducesTo_S2x8192x2048_S2x8192_d2 hR h_S_]
  have hf : (x ∘ hR.lift (ix2 b s)) = fun k : Fin 2048 => x (ix3 b s k) :=
    funext fun k => congrArg x (funext fun c => Fin.ext (by fin_cases c <;> rfl))
  exact congrArg (fun f => Finset.fold max (Ideal.ofBits .f32 0xFF800000#32) f (Finset.univ : Finset (Fin 2048))) hf

/-- The reference's row maximum at (b, s): the largest magnitude of the row. -/
theorem rowMax_ref (x0 : (⟨S2x8192x2048, .f32⟩ : BufTy).Contents (Elt Ideal)) (b : Fin 2) (s : Fin 8192) :
    val_main_v1 (F := Ideal) x0 (ix2 b s) = rowAbsMax (fun k => x0 (ix3 b s k)) :=
  (hostRowMax (val_main_v0 (F := Ideal) x0) b s).trans rfl

/-- The clipped scale column at (b, s, 0): the row's scale. -/
theorem scale_ref (x0 : (⟨S2x8192x2048, .f32⟩ : BufTy).Contents (Elt Ideal)) (b : Fin 2) (s : Fin 8192) :
    val_main_v3 (F := Ideal) x0 (ix3 b s (0 : Fin 1)) = rowScale (fun k => x0 (ix3 b s k)) := by
  rw [val_main_v3_apply, val_main_call0_v1_apply, val_main_call0_v0_apply, val_main_cst_0_apply, val_main_v2_apply, idx_v2,
    rowMax_ref]
  rfl

/-- The quantized activations at (b, s, k): the row's quantized entry k. -/
theorem quant_ref (x0 : (⟨S2x8192x2048, .f32⟩ : BufTy).Contents (Elt Ideal)) (b : Fin 2) (s : Fin 8192) (k : Fin 2048) :
    val_main_v9 (F := Ideal) x0 (ix3 b s k) = rowQuant (fun k => x0 (ix3 b s k)) k := by
  rw [val_main_v9_apply, val_main_call2_v4_apply, val_main_call2_v3_apply, val_main_c_2_apply, val_main_call2_v2_apply,
    val_main_call2_v1_apply, val_main_call2_v0_apply, val_main_c_apply, val_main_v8_apply, val_main_v7_apply,
    val_main_v6_apply, idx_v6, val_main_v5_apply, val_main_v4_apply, val_main_cst_1_apply, scale_ref,
    Consts.sitofp_127, Consts.sitofp_neg127]
  rfl

/-- THE REFERENCE'S RESULT is the specification's, of the activations and the dequantized weight stage. -/
theorem result_ref (x0 : (⟨S2x8192x2048, .f32⟩ : BufTy).Contents (Elt Ideal))
    (x1 : (⟨S2048x2048, .f32⟩ : BufTy).Contents (Elt Ideal)) :
    val_main_v28 (F := Ideal) x0 x1 = result3 x0 (val_main_v23 (F := Ideal) x1) := by
  funext i
  obtain ⟨b, s, o, rfl⟩ : ∃ (b : Fin 2) (s : Fin 8192) (o : Fin 2048), i = ix3 b s o := ⟨i 0, i 1, i 2, eq_ix3 i⟩
  have hq : val_main_v26 (F := Ideal) x0 x1 (ix3 b s o)
      = Ideal.div (∑ k : Fin 2048, rowQuant (fun k => x0 (ix3 b s k)) k * val_main_v23 (F := Ideal) x1 (ix2 o k))
          (rowScale (fun k => x0 (ix3 b s k))) := by
    rw [val_main_v26_apply, val_main_v24_apply, val_main_v25_apply, idx_v25, scale_ref]
    simp only [lidx_v24, ridx_v24, quant_ref]
    rfl
  rw [val_main_v28_apply, val_main_v27_apply, val_main_call5_v0_apply, val_main_call5_cst_apply, hq]
  rfl

end Cert.ReferenceIdeal.RefValue

end
-- ==== Proof.lean ====
/-
  A quantized linear layer with a squared rectifier: the tiled kernel against the plain reference, over the extended
  reals.

  Both programs quantize each row of the activations against its own largest magnitude, contract the quantized rows
  with the ternary weight matrix dequantized by its mean magnitude, divide by the row's scale, rectify and square. The
  kernel does it on the activations flattened to [16384, 2048], 256 rows at a grid point, against the weight matrix
  transposed; the reference on the [2, 8192, 2048] array against the weight matrix as it is. Every step is computed one
  row of activations against one row of weights at a time, by the same exact operations, so the two results are one
  function of the arguments (`BitLinear.result3`): the kernel's by reading each block it writes and gluing the 64
  blocks, the reference's by reading its 53 operations in order. No rewrite was applied to idealize the kernel, and the
  three programs leave their arguments as they found them.
-/
import proofs.«143021_j6734508720681_1_alg».proof.Defs
import proofs.«143021_j6734508720681_1_alg».proof.Proof.Gen.Kernel
import proofs.«143021_j6734508720681_1_alg».proof.Proof.Gen.Kernel.Skeleton
import proofs.«143021_j6734508720681_1_alg».proof.Proof.Gen.Kernel.Launch
import proofs.«143021_j6734508720681_1_alg».proof.Proof.Gen.Kernel.Points
import proofs.«143021_j6734508720681_1_alg».proof.Proof.Gen.Kernel.Frame
import proofs.«143021_j6734508720681_1_alg».proof.Proof.Gen.KernelIdeal
import proofs.«143021_j6734508720681_1_alg».proof.Proof.Gen.KernelIdeal.Skeleton
import proofs.«143021_j6734508720681_1_alg».proof.Proof.Gen.KernelIdeal.Launch
import proofs.«143021_j6734508720681_1_alg».proof.Proof.Gen.KernelIdeal.Points
import proofs.«143021_j6734508720681_1_alg».proof.Proof.Gen.KernelIdeal.Frame
import proofs.«143021_j6734508720681_1_alg».proof.Proof.Gen.ReferenceIdeal
import proofs.«143021_j6734508720681_1_alg».proof.Proof.Gen.Pre_finite_inputs
import proofs.«143021_j6734508720681_1_alg».proof.Proof.KernelRun
import proofs.«143021_j6734508720681_1_alg».proof.Proof.RefFold
import proofs.«143021_j6734508720681_1_alg».proof.Proof.RefValue
import Idealize.ShloMosaic.Adequacy
import Idealize.ShloMosaic.Init

noncomputable section

namespace Cert.Proof

open Idealize.ShloMosaic Idealize.ShloMosaic.TcCoe Idealize.SL.Sem

/-- The reference's run with its result named: the specification's result of the arguments, the arguments unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v28)
          = Cert.BitLinear.result3 (m ((c.tc : Thread Cert.ReferenceIdeal.nD Cert.ReferenceIdeal.τ).loc Cert.ReferenceIdeal.main_arg0))
              (Cert.ReferenceIdeal.Read.val_main_v23 (F := Ideal)
                (m ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1) :=
  (θ_run Cert.ReferenceIdeal.defs _ _).mono (fun _ h c =>
    ⟨(h c Cert.ReferenceIdeal.main_v28).trans
        ((Cert.ReferenceIdeal.Straight.out_eq _).trans (Cert.ReferenceIdeal.RefValue.result_ref _ _)),
      (h c Cert.ReferenceIdeal.main_arg0).trans (Cert.ReferenceIdeal.Straight.arg0_eq _),
      (h c Cert.ReferenceIdeal.main_arg1).trans (Cert.ReferenceIdeal.Straight.arg1_eq _)⟩)
    (Cert.ReferenceIdeal.Straight.run_all (F := Ideal) m ρ)

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (reference_run m ρ)

/-- Both programs end with `result3` of arguments that agree. -/
theorem algebraic : Cert.algebraic_KernelIdeal_ReferenceIdeal := by
  intro m ρ m' ρ' _ hagree
  refine ⟨_, Cert.KernelIdeal.Host.run m ρ, ?_⟩
  refine (θ_run Cert.ReferenceIdeal.defs _ _).mono (fun _ h c => ⟨(h c).1.trans ?_, (h c).2⟩) (reference_run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
